-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x16 : Shape := ⟨2, ![32768, 16]⟩
abbrev S32768x3 : Shape := ⟨2, ![32768, 3]⟩
abbrev S128x3415 : Shape := ⟨2, ![128, 3415]⟩
abbrev S128 : Shape := ⟨1, ![128]⟩
abbrev S_ : Shape := ⟨0, ![]⟩

class Facts : Prop where
  bcast_S_S32768x16 : S_.BroadcastsInDim S32768x16 (![] : Fin 0 → Fin S32768x16.rank)
  reducesTo_S32768x16_S_d0_1 : S32768x16.ReducesTo [0, 1] S_
  h_S_ : 0 < S_.numel
  bcast_S_S128x3415 : S_.BroadcastsInDim S128x3415 (![] : Fin 0 → Fin S128x3415.rank)
  reducesTo_S128x3415_S_d0_1 : S128x3415.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32768x16 .f32) (main_arg1 : IVec S32768x3 32) (main_arg2 : FVec F S128x3415 .f32) (main_arg3 : FVec F S128 .f32) : IVec S_ 1 :=
  let main_v0 : FVec F S32768x16 .f32 := Host.absf main_arg0
  let main_cst : FVec F S_ .f32 := constant S_ .f32 0x7F800000#32
  let main_v1 : FVec F S32768x16 .f32 := broadcastInDim S32768x16 ![] bcast_S_S32768x16 main_cst
  let main_v2 : IVec S32768x16 1 := cmpf .olt main_v0 main_v1
  let main_c : IVec S_ 1 := constantI S_ 1 1#1
  let main_v3 : IVec S_ 1 := (fun x v => Host.reduce IntOp.andi x v reducesTo_S32768x16_S_d0_1 h_S_) main_v2 main_c
  let main_v4 : FVec F S128x3415 .f32 := Host.absf main_arg2
  let main_cst_0 : FVec F S_ .f32 := constant S_ .f32 0x7F800000#32
  let main_v5 : FVec F S128x3415 .f32 := broadcastInDim S128x3415 ![] bcast_S_S128x3415 main_cst_0
  let main_v6 : IVec S128x3415 1 := cmpf .olt main_v4 main_v5
  let main_c_1 : IVec S_ 1 := constantI S_ 1 1#1
  let main_v7 : IVec S_ 1 := (fun x v => Host.reduce IntOp.andi x v reducesTo_S128x3415_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32768x16 : Shape := ⟨2, ![32768, 16]⟩
abbrev S32768x3 : Shape := ⟨2, ![32768, 3]⟩
abbrev S128x3415 : Shape := ⟨2, ![128, 3415]⟩
abbrev S128 : Shape := ⟨1, ![128]⟩
abbrev S1x128 : Shape := ⟨2, ![1, 128]⟩
abbrev S128x147 : Shape := ⟨2, ![128, 147]⟩
abbrev S128x3268 : Shape := ⟨2, ![128, 3268]⟩
abbrev S32768x128 : Shape := ⟨2, ![32768, 128]⟩
abbrev S1024x16 : Shape := ⟨2, ![1024, 16]⟩
abbrev S1024x3 : Shape := ⟨2, ![1024, 3]⟩
abbrev S1024x128 : Shape := ⟨2, ![1024, 128]⟩
abbrev S1024x1 : Shape := ⟨2, ![1024, 1]⟩
abbrev S1024x24 : Shape := ⟨2, ![1024, 24]⟩
abbrev S1024x7 : Shape := ⟨2, ![1024, 7]⟩
abbrev S1024x100 : Shape := ⟨2, ![1024, 100]⟩
abbrev S1024x147 : Shape := ⟨2, ![1024, 147]⟩
abbrev S1024x168 : Shape := ⟨2, ![1024, 168]⟩
abbrev S1024x2400 : Shape := ⟨2, ![1024, 2400]⟩
abbrev S1024x700 : Shape := ⟨2, ![1024, 700]⟩
abbrev S1024x3268 : Shape := ⟨2, ![1024, 3268]⟩

abbrev nBuf : Space → Nat
  | .hbm => 10
  | .vmem => 9
  | .smem => 0
  | _ => 0

abbrev bufTy : (tb : Table) → Fin (tcTables nBuf tb) → BufTy
  | .hbm, ⟨0, _⟩ => ⟨S32768x16, .f32⟩
  | .hbm, ⟨1, _⟩ => ⟨S32768x3, .i32⟩
  | .hbm, ⟨2, _⟩ => ⟨S128x3415, .f32⟩
  | .hbm, ⟨3, _⟩ => ⟨S128, .f32⟩
  | .hbm, ⟨4, _⟩ => ⟨S1x128, .f32⟩
  | .hbm, ⟨5, _⟩ => ⟨S128x147, .f32⟩
  | .hbm, ⟨6, _⟩ => ⟨S128x147, .bf16⟩
  | .hbm, ⟨7, _⟩ => ⟨S128x3268, .f32⟩
  | .hbm, ⟨8, _⟩ => ⟨S128x3268, .bf16⟩
  | .hbm, ⟨9, _⟩ => ⟨S32768x128, .f32⟩
  | .local _ .vmem, ⟨0, _⟩ => ⟨S1024x16, .f32⟩
  | .local _ .vmem, ⟨1, _⟩ => ⟨S1024x16, .f32⟩
  | .local _ .vmem, ⟨2, _⟩ => ⟨S1024x3, .i32⟩
  | .local _ .vmem, ⟨3, _⟩ => ⟨S1024x3, .i32⟩
  | .local _ .vmem, ⟨4, _⟩ => ⟨S128x147, .bf16⟩
  | .local _ .vmem, ⟨5, _⟩ => ⟨S128x3268, .bf16⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | _, _ => ⟨S32768x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x147 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3268 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  slices_S128x3415_S128x147_0_0 : S128x3415.Slices ![0, 0] S128x147
  bitsLt_bf16_f32 : FTy.bits .bf16 < FTy.bits .f32
  slices_S128x3415_S128x3268_0_147 : S128x3415.Slices ![0, 147] S128x3268
  inb_S1024x3_S1024x1_0_0 : ∀ a, (![0, 0] : Fin 2 → Nat) a + S1024x1.size a ≤ S1024x3.size a
  h_S1024x1 : 0 < S1024x1.numel
  inb_S1024x3_S1024x1_0_1 : ∀ a, (![0, 1] : Fin 2 → Nat) a + S1024x1.size a ≤ S1024x3.size a
  inb_S1024x3_S1024x1_0_2 : ∀ a, (![0, 2] : Fin 2 → Nat) a + S1024x1.size a ≤ S1024x3.size a
  inb_S1024x16_S1024x16_0_0 : ∀ a, (![0, 0] : Fin 2 → Nat) a + S1024x16.size a ≤ S1024x16.size a
  h_S1024x16 : 0 < S1024x16.numel
  iota_S1024x24_d1_w32 : S1024x24.Iotas .tc 32 [1]
  broadcasts_S1024x1_S1024x24 : S1024x1.Broadcasts S1024x24
  natLt_1_32 : 1 < 32
  iota_S1024x7_d1_w32 : S1024x7.Iotas .tc 32 [1]
  broadcasts_S1024x1_S1024x7 : S1024x1.Broadcasts S1024x7
  iota_S1024x100_d1_w32 : S1024x100.Iotas .tc 32 [1]
  broadcasts_S1024x1_S1024x100 : S1024x1.Broadcasts S1024x100
  concatenates_S1024x16_S1024x24_S1024x7_S1024x100_S1024x147_d1 : Shape.Concatenates [S1024x16, S1024x24, S1024x7, S1024x100] S1024x147 1
  iota_S1024x168_d1_w32 : S1024x168.Iotas .tc 32 [1]
  broadcasts_S1024x1_S1024x168 : S1024x1.Broadcasts S1024x168
  iota_S1024x2400_d1_w32 : S1024x2400.Iotas .tc 32 [1]
  broadcasts_S1024x1_S1024x2400 : S1024x1.Broadcasts S1024x2400
  iota_S1024x700_d1_w32 : S1024x700.Iotas .tc 32 [1]
  broadcasts_S1024x1_S1024x700 : S1024x1.Broadcasts S1024x700
  concatenates_S1024x168_S1024x2400_S1024x700_S1024x3268_d1 : Shape.Concatenates [S1024x168, S1024x2400, S1024x700] S1024x3268 1
  inb_S128x147_S128x147_0_0 : ∀ a, (![0, 0] : Fin 2 → Nat) a + S128x147.size a ≤ S128x147.size a
  h_S128x147 : 0 < S128x147.numel
  shapeCasts_S128x147_S128x147 : S128x147.ShapeCasts S128x147
  inb_S128x3268_S128x3268_0_0 : ∀ a, (![0, 0] : Fin 2 → Nat) a + S128x3268.size a ≤ S128x3268.size a
  h_S128x3268 : 0 < S128x3268.numel
  shapeCasts_S128x3268_S128x3268 : S128x3268.ShapeCasts S128x3268
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  dot_S1024x147_S128x147_S1024x128_1_1_0_0_n_n_wf : DotDims.WF S1024x147 S128x147 S1024x128 [1] [1] [0] [0] [] []
  dot_S1024x3268_S128x3268_S1024x128_1_1_0_0_n_n_wf : DotDims.WF S1024x3268 S128x3268 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S32768x16.size a
  hwx0_0 : ∀ i : grid0.Coords, EltTy.bits .f32 = 32 ∨ (Rect.block (s := S32768x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S32768x3.size a
  hwx0_1 : ∀ i : grid0.Coords, EltTy.bits .i32 = 32 ∨ (Rect.block (s := S32768x3) S1024x3.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x147.size a ≤ S128x147.size a
  hwx0_2 : ∀ i : grid0.Coords, EltTy.bits .bf16 = 32 ∨ (Rect.block (s := S128x147) S128x147.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3268.size a ≤ S128x3268.size a
  hwx0_3 : ∀ i : grid0.Coords, EltTy.bits .bf16 = 32 ∨ (Rect.block (s := S128x3268) S128x3268.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S32768x128.size a
  hwx0_5 : ∀ i : grid0.Coords, EltTy.bits .f32 = 32 ∨ (Rect.block (s := S32768x128) S1024x128.size (cc0_transform_5 i) (hinb0_5 i)).WholeWords (EltTy.packing .f32)

variable [Facts₀]

def dot_S1024x147_S128x147_S1024x128_1_1_0_0_n_n : DotDims S1024x147 S128x147 S1024x128 where
  lhsContracting := [1]
  rhsContracting := [1]
  lhsNonContracting := [0]
  rhsNonContracting := [0]
  lhsBatch := []
  rhsBatch := []
  wf := dot_S1024x147_S128x147_S1024x128_1_1_0_0_n_n_wf
def dot_S1024x3268_S128x3268_S1024x128_1_1_0_0_n_n : DotDims S1024x3268 S128x3268 S1024x128 where
  lhsContracting := [1]
  rhsContracting := [1]
  lhsNonContracting := [0]
  rhsNonContracting := [0]
  lhsBatch := []
  rhsBatch := []
  wf := dot_S1024x3268_S128x3268_S1024x128_1_1_0_0_n_n_wf

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x147.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x3268.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x16 : Shape := ⟨2, ![32768, 16]⟩
abbrev S32768x3 : Shape := ⟨2, ![32768, 3]⟩
abbrev S128x3415 : Shape := ⟨2, ![128, 3415]⟩
abbrev S128 : Shape := ⟨1, ![128]⟩
abbrev S32768x1 : Shape := ⟨2, ![32768, 1]⟩
abbrev S32768 : Shape := ⟨1, ![32768]⟩
abbrev S1x24 : Shape := ⟨2, ![1, 24]⟩
abbrev S32768x24 : Shape := ⟨2, ![32768, 24]⟩
abbrev S1x7 : Shape := ⟨2, ![1, 7]⟩
abbrev S32768x7 : Shape := ⟨2, ![32768, 7]⟩
abbrev S1x100 : Shape := ⟨2, ![1, 100]⟩
abbrev S32768x100 : Shape := ⟨2, ![32768, 100]⟩
abbrev S_ : Shape := ⟨0, ![]⟩
abbrev S1x168 : Shape := ⟨2, ![1, 168]⟩
abbrev S32768x168 : Shape := ⟨2, ![32768, 168]⟩
abbrev S1x2400 : Shape := ⟨2, ![1, 2400]⟩
abbrev S32768x2400 : Shape := ⟨2, ![32768, 2400]⟩
abbrev S1x700 : Shape := ⟨2, ![1, 700]⟩
abbrev S32768x700 : Shape := ⟨2, ![32768, 700]⟩
abbrev S32768x3415 : Shape := ⟨2, ![32768, 3415]⟩
abbrev S3415x128 : Shape := ⟨2, ![3415, 128]⟩
abbrev S32768x128 : Shape := ⟨2, ![32768, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S32768x16, .f32⟩
  | .hbm, ⟨1, _⟩ => ⟨S32768x3, .i32⟩
  | .hbm, ⟨2, _⟩ => ⟨S128x3415, .f32⟩
  | .hbm, ⟨3, _⟩ => ⟨S128, .f32⟩
  | .hbm, ⟨4, _⟩ => ⟨S32768x1, .i32⟩
  | .hbm, ⟨5, _⟩ => ⟨S32768, .i32⟩
  | .hbm, ⟨6, _⟩ => ⟨S32768x1, .i32⟩
  | .hbm, ⟨7, _⟩ => ⟨S1x24, .i32⟩
  | .hbm, ⟨8, _⟩ => ⟨S32768x24, .i32⟩
  | .hbm, ⟨9, _⟩ => ⟨S32768x24, .i32⟩
  | .hbm, ⟨10, _⟩ => ⟨S32768x24, .i1⟩
  | .hbm, ⟨11, _⟩ => ⟨S32768x24, .f32⟩
  | .hbm, ⟨12, _⟩ => ⟨S32768x1, .i32⟩
  | .hbm, ⟨13, _⟩ => ⟨S32768, .i32⟩
  | .hbm, ⟨14, _⟩ => ⟨S32768x1, .i32⟩
  | .hbm, ⟨15, _⟩ => ⟨S1x7, .i32⟩
  | .hbm, ⟨16, _⟩ => ⟨S32768x7, .i32⟩
  | .hbm, ⟨17, _⟩ => ⟨S32768x7, .i32⟩
  | .hbm, ⟨18, _⟩ => ⟨S32768x7, .i1⟩
  | .hbm, ⟨19, _⟩ => ⟨S32768x7, .f32⟩
  | .hbm, ⟨20, _⟩ => ⟨S32768x1, .i32⟩
  | .hbm, ⟨21, _⟩ => ⟨S32768, .i32⟩
  | .hbm, ⟨22, _⟩ => ⟨S32768x1, .i32⟩
  | .hbm, ⟨23, _⟩ => ⟨S1x100, .i32⟩
  | .hbm, ⟨24, _⟩ => ⟨S32768x100, .i32⟩
  | .hbm, ⟨25, _⟩ => ⟨S32768x100, .i32⟩
  | .hbm, ⟨26, _⟩ => ⟨S32768x100, .i1⟩
  | .hbm, ⟨27, _⟩ => ⟨S32768x100, .f32⟩
  | .hbm, ⟨28, _⟩ => ⟨S32768x1, .i32⟩
  | .hbm, ⟨29, _⟩ => ⟨S32768, .i32⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S1x168, .i32⟩
  | .hbm, ⟨38, _⟩ => ⟨S32768x168, .i32⟩
  | .hbm, ⟨39, _⟩ => ⟨S32768x168, .i32⟩
  | .hbm, ⟨40, _⟩ => ⟨S32768x168, .i1⟩
  | .hbm, ⟨41, _⟩ => ⟨S32768x168, .f32⟩
  | .hbm, ⟨42, _⟩ => ⟨S32768x1, .i32⟩
  | .hbm, ⟨43, _⟩ => ⟨S32768, .i32⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768x1, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S1x2400, .i32⟩
  | .hbm, ⟨52, _⟩ => ⟨S32768x2400, .i32⟩
  | .hbm, ⟨53, _⟩ => ⟨S32768x2400, .i32⟩
  | .hbm, ⟨54, _⟩ => ⟨S32768x2400, .i1⟩
  | .hbm, ⟨55, _⟩ => ⟨S32768x2400, .f32⟩
  | .hbm, ⟨56, _⟩ => ⟨S32768x1, .i32⟩
  | .hbm, ⟨57, _⟩ => ⟨S32768, .i32⟩
  | .hbm, ⟨58, _⟩ => ⟨S_, .i32⟩
  | .hbm, ⟨59, _⟩ => ⟨S32768, .i32⟩
  | .hbm, ⟨60, _⟩ => ⟨S32768, .i32⟩
  | .hbm, ⟨61, _⟩ => ⟨S32768x1, .i32⟩
  | .hbm, ⟨62, _⟩ => ⟨S32768, .i32⟩
  | .hbm, ⟨63, _⟩ => ⟨S32768, .i32⟩
  | .hbm, ⟨64, _⟩ => ⟨S32768x1, .i32⟩
  | .hbm, ⟨65, _⟩ => ⟨S1x700, .i32⟩
  | .hbm, ⟨66, _⟩ => ⟨S32768x700, .i32⟩
  | .hbm, ⟨67, _⟩ => ⟨S32768x700, .i32⟩
  | .hbm, ⟨68, _⟩ => ⟨S32768x700, .i1⟩
  | .hbm, ⟨69, _⟩ => ⟨S32768x700, .f32⟩
  | .hbm, ⟨70, _⟩ => ⟨S32768x3415, .f32⟩
  | .hbm, ⟨71, _⟩ => ⟨S3415x128, .f32⟩
  | .hbm, ⟨72, _⟩ => ⟨S32768x128, .f32⟩
  | .hbm, ⟨73, _⟩ => ⟨S1x128, .f32⟩
  | .hbm, ⟨74, _⟩ => ⟨S32768x128, .f32⟩
  | .hbm, ⟨75, _⟩ => ⟨S32768x128, .f32⟩
  | .hbm, ⟨76, _⟩ => ⟨S_, .f32⟩
  | .hbm, ⟨77, _⟩ => ⟨S32768x128, .f32⟩
  | .hbm, ⟨78, _⟩ => ⟨S32768x128, .f32⟩
  | _, _ => ⟨S32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call4_v0 : Ref sig .tc := ⟨.hbm, 50, rfl⟩
abbrev main_call4_v1 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_1 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call6_cst : Ref sig .tc := ⟨.hbm, 76, rfl⟩
abbrev main_call6_v0 : Ref sig .tc := ⟨.hbm, 77, rfl⟩
abbrev main_v39 : Ref sig .tc := ⟨.hbm, 78, rfl⟩

abbrev nD : Nat := 1
abbrev τ : Topo := Topo.v7x

variable {F : FTy → Type} [FloatOps F]

class Facts₀ : Prop where
  slices_S32768x3_S32768x1_0_0 : S32768x3.Slices ![0, 0] S32768x1
  shapeCasts_S32768x1_S32768 : S32768x1.ShapeCasts S32768
  bcast_S32768_S32768x1_0 : S32768.BroadcastsInDim S32768x1 (![0] : Fin 1 → Fin S32768x1.rank)
  bcast_S32768x1_S32768x24_0_1 : S32768x1.BroadcastsInDim S32768x24 (![0, 1] : Fin 2 → Fin S32768x24.rank)
  bcast_S1x24_S32768x24_0_1 : S1x24.BroadcastsInDim S32768x24 (![0, 1] : Fin 2 → Fin S32768x24.rank)
  slices_S32768x3_S32768x1_0_1 : S32768x3.Slices ![0, 1] S32768x1
  bcast_S32768x1_S32768x7_0_1 : S32768x1.BroadcastsInDim S32768x7 (![0, 1] : Fin 2 → Fin S32768x7.rank)
  bcast_S1x7_S32768x7_0_1 : S1x7.BroadcastsInDim S32768x7 (![0, 1] : Fin 2 → Fin S32768x7.rank)
  slices_S32768x3_S32768x1_0_2 : S32768x3.Slices ![0, 2] S32768x1
  bcast_S32768x1_S32768x100_0_1 : S32768x1.BroadcastsInDim S32768x100 (![0, 1] : Fin 2 → Fin S32768x100.rank)
  bcast_S1x100_S32768x100_0_1 : S1x100.BroadcastsInDim S32768x100 (![0, 1] : Fin 2 → Fin S32768x100.rank)
  bcast_S_S32768 : S_.BroadcastsInDim S32768 (![] : Fin 0 → Fin S32768.rank)
  bcast_S32768x1_S32768x168_0_1 : S32768x1.BroadcastsInDim S32768x168 (![0, 1] : Fin 2 → Fin S32768x168.rank)
  bcast_S1x168_S32768x168_0_1 : S1x168.BroadcastsInDim S32768x168 (![0, 1] : Fin 2 → Fin S32768x168.rank)
  bcast_S32768x1_S32768x2400_0_1 : S32768x1.BroadcastsInDim S32768x2400 (![0, 1] : Fin 2 → Fin S32768x2400.rank)
  bcast_S1x2400_S32768x2400_0_1 : S1x2400.BroadcastsInDim S32768x2400 (![0, 1] : Fin 2 → Fin S32768x2400.rank)
  bcast_S32768x1_S32768x700_0_1 : S32768x1.BroadcastsInDim S32768x700 (![0, 1] : Fin 2 → Fin S32768x700.rank)
  bcast_S1x700_S32768x700_0_1 : S1x700.BroadcastsInDim S32768x700 (![0, 1] : Fin 2 → Fin S32768x700.rank)
  concatenates_S32768x16_S32768x24_S32768x7_S32768x100_S32768x168_S32768x2400_S32768x700_S32768x3415_d1 : Shape.Concatenates [S32768x16, S32768x24, S32768x7, S32768x100, S32768x168, S32768x2400, S32768x700] S32768x3415 1
  transposes_S128x3415_S3415x128_1_0 : S128x3415.Transposes [1, 0] S3415x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  dot_S32768x3415_S3415x128_S32768x128_1_0_0_1_n_n_wf : DotDims.WF S32768x3415 S3415x128 S32768x128 [1] [0] [0] [1] [] []

variable [Facts₀]

def dot_S32768x3415_S3415x128_S32768x128_1_0_0_1_n_n : DotDims S32768x3415 S3415x128 S32768x128 where
  lhsContracting := [1]
  rhsContracting := [0]
  lhsNonContracting := [0]
  rhsNonContracting := [1]
  lhsBatch := []
  rhsBatch := []
  wf := dot_S32768x3415_S3415x128_S32768x128_1_0_0_1_n_n_wf

class Facts : Prop extends Facts₀ where

variable [Facts]
-- ==== Proof.Spec.lean ====
/-
  The wide layer as mathematics, with no program in sight.

  A batch row carries sixteen real features and three class indices s0, s1, s2 (32-bit words). Its FEATURE VECTOR has
  3415 entries laid end to end in seven spans:

      [0, 16)      the sixteen real features
      [16, 40)     the one-hot of s0 among 24 classes
      [40, 47)     the one-hot of s1 among 7 classes
      [47, 147)    the one-hot of s2 among 100 classes
      [147, 315)   the one-hot of the pair index 7·s0 + s1 among 168
      [315, 2715)  the one-hot of the pair index 100·s0 + s2 among 2400
      [2715, 3415) the one-hot of the pair index 100·s1 + s2 among 700

  where the pair indices are computed in wrapping 32-bit arithmetic and a one-hot entry at class k is 1 exactly when
  the word of k IS the index word (so an index outside the classes gives a row of zeros). The layer's output at row r
  and unit o is  max (Σ_k feat_r[k] · W[o, k] + b[o], 0).

  Two arrangements of that sum appear: the whole sum over the 3415 columns, and the sum over the first 147 columns
  plus the sum over the remaining 3268. They agree because addition of extended reals is commutative and
  associative; no entry needs to be finite.
-/
import Idealize.ShloMosaic.PureOps.Ideal
import Idealize.ShloMosaic.PureOps.Ideal.Laws
import Idealize.ShloMosaic.Lib.ValueIdx
import Mathlib.Algebra.BigOperators.Fin

noncomputable section

namespace WideSpec

open Idealize.ShloMosaic Idealize.ShloMosaic.ValueIdx

/-! ## One-hot entries -/

/-- The one-hot entry at class `k` for the index word `v`: 1 when the 32-bit word of `k` is `v`, else 0. -/
def hot (v : BitVec 32) (k : ℕ) : EReal := if BitVec.ofNat 32 k = v then 1 else 0

/-- Equality of two words as a one-bit word. -/
theorem cmpi_eq_cases (x y : BitVec 32) : IntOp.cmpi .eq x y = if x = y then 1#1 else 0#1 := by
  unfold IntOp.cmpi
  by_cases h : x = y
  · subst h; simp
  · have hb : (x == y) = false := beq_eq_false_iff_ne.mpr h
    simp only [hb, if_neg h]; rfl

/-- The bit widened to 32 bits and read as a signed integer is 1 or 0. -/
theorem signed_of_widened_bit (x y : BitVec 32) :
    ((((IntOp.cmpi .eq x y).setWidth 32).toInt : ℝ) : EReal) = if x = y then 1 else 0 := by
  rw [cmpi_eq_cases]
  by_cases h : x = y
  · rw [if_pos h, if_pos h]
    have : ((1#1 : BitVec 1).setWidth 32).toInt = 1 := by decide
    rw [this]; norm_num
  · rw [if_neg h, if_neg h]
    have : ((0#1 : BitVec 1).setWidth 32).toInt = 0 := by decide
    rw [this]; norm_num

/-- The bit read as an unsigned integer is 1 or 0. -/
theorem unsigned_of_bit (x y : BitVec 32) :
    ((((IntOp.cmpi .eq x y).toNat : ℕ) : ℝ) : EReal) = if x = y then 1 else 0 := by
  rw [cmpi_eq_cases]
  by_cases h : x = y
  · rw [if_pos h, if_pos h]
    have : (1#1 : BitVec 1).toNat = 1 := by decide
    rw [this]; norm_num
  · rw [if_neg h, if_neg h]
    have : (0#1 : BitVec 1).toNat = 0 := by decide
    rw [this]; norm_num

/-! ## A row's feature vector -/

/-- Entry `k` of the feature vector of a row with real features `d` and class indices `s0 s1 s2`. -/
def feat (d : Fin 16 → EReal) (s0 s1 s2 : BitVec 32) (k : ℕ) : EReal :=
  if h : k < 16 then d ⟨k, h⟩
  else if k < 40 then hot s0 (k - 16)
  else if k < 47 then hot s1 (k - 40)
  else if k < 147 then hot s2 (k - 47)
  else if k < 315 then hot (IntOp.addi (IntOp.muli s0 7#32) s1) (k - 147)
  else if k < 2715 then hot (IntOp.addi (IntOp.muli s0 100#32) s2) (k - 315)
  else hot (IntOp.addi (IntOp.muli s1 100#32) s2) (k - 2715)

/-! ## The layer -/

/-- The layer's output at row `r`, unit `o`, from the whole arrays. -/
def outAt (dense : (⟨2, ![32768, 16]⟩ : Shape).Idx → EReal) (sparse : (⟨2, ![32768, 3]⟩ : Shape).Idx → BitVec 32)
    (W : (⟨2, ![128, 3415]⟩ : Shape).Idx → EReal) (b : (⟨1, ![128]⟩ : Shape).Idx → EReal)
    (r : Fin 32768) (o : Fin 128) : EReal :=
  max ((∑ k : Fin 3415,
          feat (fun c => dense (ix2 r c)) (sparse (ix2 r (0 : Fin 3))) (sparse (ix2 r (1 : Fin 3))) (sparse (ix2 r (2 : Fin 3))) k.val
            * W (ix2 o k))
        + b (ix1 o))
    (Ideal.ofBits .f32 0x00000000#32)

/-- The layer's output array. -/
def G (dense : (⟨2, ![32768, 16]⟩ : Shape).Idx → EReal) (sparse : (⟨2, ![32768, 3]⟩ : Shape).Idx → BitVec 32)
    (W : (⟨2, ![128, 3415]⟩ : Shape).Idx → EReal) (b : (⟨1, ![128]⟩ : Shape).Idx → EReal) :
    (⟨2, ![32768, 128]⟩ : Shape).Idx → EReal :=
  fun i => outAt dense sparse W b (i 0) (i 1)

theorem G_ix2 (dense : (⟨2, ![32768, 16]⟩ : Shape).Idx → EReal) (sparse : (⟨2, ![32768, 3]⟩ : Shape).Idx → BitVec 32)
    (W : (⟨2, ![128, 3415]⟩ : Shape).Idx → EReal) (b : (⟨1, ![128]⟩ : Shape).Idx → EReal) (r : Fin 32768) (o : Fin 128) :
    G dense sparse W b (ix2 r o) = outAt dense sparse W b r o := rfl

/-- One tile of 1024 rows: the output at the tile's row `p`, unit `q`, from the tile's rows of features and indices,
    the first 147 and the last 3268 columns of the weights as two matrices, and the bias as a one-row matrix. -/
def tileAt (x0 : (⟨2, ![1024, 16]⟩ : Shape).Idx → EReal) (x1 : (⟨2, ![1024, 3]⟩ : Shape).Idx → BitVec 32)
    (w1 : (⟨2, ![128, 147]⟩ : Shape).Idx → EReal) (w2 : (⟨2, ![128, 3268]⟩ : Shape).Idx → EReal)
    (b2 : (⟨2, ![1, 128]⟩ : Shape).Idx → EReal) (p : Fin 1024) (q : Fin 128) : EReal :=
  max (((∑ k : Fin 147,
            feat (fun c => x0 (ix2 p c)) (x1 (ix2 p (0 : Fin 3))) (x1 (ix2 p (1 : Fin 3))) (x1 (ix2 p (2 : Fin 3))) k.val
              * w1 (ix2 q k))
          + (∑ k : Fin 3268,
            feat (fun c => x0 (ix2 p c)) (x1 (ix2 p (0 : Fin 3))) (x1 (ix2 p (1 : Fin 3))) (x1 (ix2 p (2 : Fin 3))) (147 + k.val)
              * w2 (ix2 q k)))
        + b2 (ix2 (0 : Fin 1) q))
    (Ideal.ofBits .f32 0x00000000#32)

/-! ## The two arrangements of the sum agree -/

/-- A sum over 3415 columns is the sum over the first 147 plus the sum over the other 3268. -/
theorem sum_join (F : ℕ → EReal) (w : Fin 3415 → EReal) (w1 : Fin 147 → EReal) (w2 : Fin 3268 → EReal)
    (h1 : ∀ k : Fin 147, w1 k = w ⟨k.val, by omega⟩) (h2 : ∀ k : Fin 3268, w2 k = w ⟨147 + k.val, by omega⟩) :
    (∑ k : Fin 147, F k.val * w1 k) + (∑ k : Fin 3268, F (147 + k.val) * w2 k) = ∑ k : Fin 3415, F k.val * w k := by
  have e : (∑ k : Fin 3415, F k.val * w k) = ∑ k : Fin (147 + 3268), F k.val * w k := rfl
  rw [e, Fin.sum_univ_add]
  congr 1
  · refine Finset.sum_congr rfl fun k _ => ?_
    rw [h1 k]; rfl
  · refine Finset.sum_congr rfl fun k _ => ?_
    rw [h2 k]; rfl

/-- A tile whose rows, weights and bias are the whole arrays' computes the layer's output at its rows. -/
theorem tileAt_eq_outAt (dense : (⟨2, ![32768, 16]⟩ : Shape).Idx → EReal) (sparse : (⟨2, ![32768, 3]⟩ : Shape).Idx → BitVec 32)
    (W : (⟨2, ![128, 3415]⟩ : Shape).Idx → EReal) (b : (⟨1, ![128]⟩ : Shape).Idx → EReal)
    (x0 : (⟨2, ![1024, 16]⟩ : Shape).Idx → EReal) (x1 : (⟨2, ![1024, 3]⟩ : Shape).Idx → BitVec 32)
    (w1 : (⟨2, ![128, 147]⟩ : Shape).Idx → EReal) (w2 : (⟨2, ![128, 3268]⟩ : Shape).Idx → EReal)
    (b2 : (⟨2, ![1, 128]⟩ : Shape).Idx → EReal) (p : Fin 1024) (q : Fin 128) (r : Fin 32768)
    (hx0 : ∀ c : Fin 16, x0 (ix2 p c) = dense (ix2 r c)) (hx1 : ∀ c : Fin 3, x1 (ix2 p c) = sparse (ix2 r c))
    (hw1 : ∀ k : Fin 147, w1 (ix2 q k) = W (ix2 q (⟨k.val, by omega⟩ : Fin 3415)))
    (hw2 : ∀ k : Fin 3268, w2 (ix2 q k) = W (ix2 q (⟨147 + k.val, by omega⟩ : Fin 3415)))
    (hb : b2 (ix2 (0 : Fin 1) q) = b (ix1 q)) :
    tileAt x0 x1 w1 w2 b2 p q = outAt dense sparse W b r q := by
  unfold tileAt outAt
  rw [hb, hx1 0, hx1 1, hx1 2, (funext hx0 : (fun c => x0 (ix2 p c)) = fun c => dense (ix2 r c))]
  rw [sum_join _ (fun k => W (ix2 q k)) (fun k => w1 (ix2 q k)) (fun k => w2 (ix2 q k)) hw1 hw2]

end WideSpec

end
-- ==== Proof.LibConcatCols.lean ====
/-
  A matrix built by laying pieces side by side, read at an entry.

  Pieces of one height `R` and any widths are concatenated along the columns into an `R × C` matrix. The entry at
  row `r`, column `k` is the entry of the piece whose span of columns holds `k`: if the pieces before piece `n`
  have total width `pre`, and `k = pre + k'` with `k'` a column of piece `n`, the entry is piece `n` at `(r, k')`.
-/
import Idealize.ShloMosaic.Lib.Pipeline.Value
import Idealize.ShloMosaic.Lib.ValueIdx

namespace LibConcatCols

open Idealize.ShloMosaic Idealize.ShloMosaic.ValueIdx

variable {α : Type}

/-- The column-wise concatenation `xs` of matrices of height `R`, read at row `r` and column `k`: piece `n`, of
    width `c`, at `(r, k')`, where the pieces before it are `pre` columns wide together and `k = pre + k'`. -/
theorem concatenate_cols_apply {R C : Nat} (xs : List ((s : Shape) × (s.Idx → α)))
    (h : Shape.Concatenates (xs.map (·.1)) (⟨2, ![R, C]⟩ : Shape) (1 : Fin 2))
    (r : Fin R) (k : Fin C) (n : Nat) (hn : n < xs.length) (c : Nat)
    (x₁ : (⟨2, ![R, c]⟩ : Shape).Idx → α) (hxn : xs[n] = ⟨(⟨2, ![R, c]⟩ : Shape), x₁⟩) (pre : Nat)
    (hpre : (((xs.take n).map (·.1)).map fun s : Shape =>
        if h : s.rank = (⟨2, ![R, C]⟩ : Shape).rank then s.size ((1 : Fin (⟨2, ![R, C]⟩ : Shape).rank).cast h.symm) else 0).sum = pre)
    (k' : Fin c) (hk : pre + k'.val = k.val) :
    concatenate (⟨2, ![R, C]⟩ : Shape) (1 : Fin 2) xs h (ix2 r k) = x₁ (ix2 r k') :=
  concatenate_apply_piece (t := (⟨2, ![R, C]⟩ : Shape)) (1 : Fin 2) xs h (ix2 r k) n hn (⟨2, ![R, c]⟩ : Shape) x₁ hxn rfl pre hpre
    (ix2 r k')
    (fun b hb => match b, hb with
      | ⟨0, _⟩, _ => rfl
      | ⟨1, _⟩, hb => absurd rfl hb)
    hk

end LibConcatCols
-- ==== Proof.KerPieces.lean ====
/-
  The pieces the kernel body builds from one tile of 1024 rows, read at an entry.

  A column of the tile's index block is loaded as a [1024, 1] vector and spread over n lanes; comparing it with the
  lane numbers gives a bit per (row, class), which is widened, converted to a float and narrowed (the narrowing is the
  identity on extended reals): the one-hot entry. The first group of columns lays the dense features and the three
  single one-hots side by side: entries 0 … 146 of the row's feature vector. The three pair indices are formed from the
  loaded columns in wrapping arithmetic and one-hot encoded the same way.
-/
import proofs.«126376_j75728863363405_2_alg».proof.Proof.Gen.KernelIdeal.Frame
import proofs.«126376_j75728863363405_2_alg».proof.Proof.Spec
import proofs.«126376_j75728863363405_2_alg».proof.Proof.LibConcatCols
import Idealize.ShloMosaic.Lib.Pipeline.Value
import Idealize.ShloMosaic.Lib.ValueIdx

noncomputable section

namespace Cert.KernelIdeal.TileValue

open Cert.KernelIdeal Cert.KernelIdeal.Gen Idealize.ShloMosaic Idealize.ShloMosaic.TcCoe
open Idealize.ShloMosaic.ValueIdx WideSpec LibConcatCols

/-! ## Loading one column of the index block -/

theorem ld_col0 (x1 : Vec Ideal S1024x3 .i32) (p : Fin 1024) :
    View.ld x1 r0_0 (ix2 p (0 : Fin 1)) = x1 (ix2 p (0 : Fin 3)) := by
  show x1 (r0_0.idx (ix2 p (0 : Fin 1))) = _
  congr 1; funext a; apply Fin.ext
  match a with
  | ⟨0, _⟩ => show 0 + 1 * p.val = p.val; omega
  | ⟨1, _⟩ => rfl

theorem ld_col1 (x1 : Vec Ideal S1024x3 .i32) (p : Fin 1024) :
    View.ld x1 r0_1 (ix2 p (0 : Fin 1)) = x1 (ix2 p (1 : Fin 3)) := by
  show x1 (r0_1.idx (ix2 p (0 : Fin 1))) = _
  congr 1; funext a; apply Fin.ext
  match a with
  | ⟨0, _⟩ => show 0 + 1 * p.val = p.val; omega
  | ⟨1, _⟩ => rfl

theorem ld_col2 (x1 : Vec Ideal S1024x3 .i32) (p : Fin 1024) :
    View.ld x1 r0_2 (ix2 p (0 : Fin 1)) = x1 (ix2 p (2 : Fin 3)) := by
  show x1 (r0_2.idx (ix2 p (0 : Fin 1))) = _
  congr 1; funext a; apply Fin.ext
  match a with
  | ⟨0, _⟩ => show 0 + 1 * p.val = p.val; omega
  | ⟨1, _⟩ => rfl

/-! ## A [1024, 1] column spread over n lanes -/

theorem spread_col_apply {α : Type} (n : Nat) (v : (⟨2, ![1024, 1]⟩ : Shape).Idx → α)
    (h : (⟨2, ![1024, 1]⟩ : Shape).Broadcasts ⟨2, ![1024, n]⟩) (p : Fin 1024) (k : Fin n) :
    broadcastTo ⟨2, ![1024, n]⟩ v h (ix2 p k) = v (ix2 p (0 : Fin 1)) := by
  refine broadcastTo_apply v h (ix2 p k) (ix2 p (0 : Fin 1)) fun ax => ?_
  match ax with
  | ⟨0, _⟩ => show p.val = if (1024 : Nat) = 1 then 0 else p.val; rw [if_neg (by decide)]
  | ⟨1, _⟩ => show 0 = if (1 : Nat) = 1 then 0 else k.val; rw [if_pos rfl]

/-! ## The one-hot of a column over n classes -/

theorem onehot_apply (n : Nat) (v : IVec (⟨2, ![1024, 1]⟩ : Shape) 32)
    (hi : (⟨2, ![1024, n]⟩ : Shape).Iotas .tc 32 [1]) (hb : (⟨2, ![1024, 1]⟩ : Shape).Broadcasts ⟨2, ![1024, n]⟩)
    (h32 : 1 < 32) (hbits : FTy.bits .bf16 < FTy.bits .f32) (p : Fin 1024) (k : Fin n) :
    (truncf (F := Ideal) .bf16 (sitofp .f32 (extui 32 (cmpi .eq (iota .tc (⟨2, ![1024, n]⟩ : Shape) 32 [1] hi)
        (broadcastTo ⟨2, ![1024, n]⟩ v hb)) h32)) hbits) (ix2 p k)
      = hot (v (ix2 p (0 : Fin 1))) k.val := by
  show ((((IntOp.cmpi .eq (iota .tc (⟨2, ![1024, n]⟩ : Shape) 32 [1] hi (ix2 p k))
      (broadcastTo ⟨2, ![1024, n]⟩ v hb (ix2 p k))).setWidth 32).toInt : ℝ) : EReal) = _
  rw [signed_of_widened_bit, spread_col_apply n v hb p k]
  have e : iota .tc (⟨2, ![1024, n]⟩ : Shape) 32 [1] hi (ix2 p k) = BitVec.ofNat 32 k.val := by
    show BitVec.ofNat 32 (0 * n + k.val) = _
    rw [Nat.zero_mul, Nat.zero_add]
  rw [e]; rfl

/-- The bit alone, before it is widened. -/
theorem bit_apply (n : Nat) (v : IVec (⟨2, ![1024, 1]⟩ : Shape) 32)
    (hi : (⟨2, ![1024, n]⟩ : Shape).Iotas .tc 32 [1]) (hb : (⟨2, ![1024, 1]⟩ : Shape).Broadcasts ⟨2, ![1024, n]⟩)
    (p : Fin 1024) (k : Fin n) :
    cmpi .eq (iota .tc (⟨2, ![1024, n]⟩ : Shape) 32 [1] hi) (broadcastTo ⟨2, ![1024, n]⟩ v hb) (ix2 p k)
      = IntOp.cmpi .eq (BitVec.ofNat 32 k.val) (v (ix2 p (0 : Fin 1))) := by
  show IntOp.cmpi .eq (iota .tc (⟨2, ![1024, n]⟩ : Shape) 32 [1] hi (ix2 p k)) (broadcastTo ⟨2, ![1024, n]⟩ v hb (ix2 p k)) = _
  rw [spread_col_apply n v hb p k]
  have e : iota .tc (⟨2, ![1024, n]⟩ : Shape) 32 [1] hi (ix2 p k) = BitVec.ofNat 32 k.val := by
    show BitVec.ofNat 32 (0 * n + k.val) = _
    rw [Nat.zero_mul, Nat.zero_add]
  rw [e]

/-- A bit widened, converted and narrowed is the one-hot entry. -/
theorem float_of_bit (x y : BitVec 32) : ((((IntOp.cmpi .eq (BitVec.ofNat 32 x.toNat) y).setWidth 32).toInt : ℝ) : EReal)
    = if BitVec.ofNat 32 x.toNat = y then 1 else 0 := signed_of_widened_bit _ _

/-! ## The first group of columns: entries 0 … 146 of the row's feature vector -/

theorem group1_apply (v0 v1 v2 : Vec Ideal S1024x1 .i32) (v3 : Vec Ideal S1024x16 .f32) (p : Fin 1024) (k : Fin 147) :
    k0_pay2 (F := Ideal) v0 v1 v2 v3 (ix2 p k)
      = feat (fun c => v3 (ix2 p c)) (v0 (ix2 p (0 : Fin 1))) (v1 (ix2 p (0 : Fin 1))) (v2 (ix2 p (0 : Fin 1))) k.val := by
  unfold k0_pay2 feat
  by_cases h16 : k.val < 16
  · rw [dif_pos h16]
    exact concatenate_cols_apply _ _ p k 0 (by simp) 16 (truncf (F := Ideal) .bf16 v3 bitsLt_bf16_f32) rfl 0 rfl ⟨k.val, h16⟩ (Nat.zero_add _)
  rw [dif_neg h16]
  by_cases h40 : k.val < 40
  · rw [if_pos h40]
    refine (concatenate_cols_apply _ _ p k 1 (by simp) 24 _ rfl 16 rfl ⟨k.val - 16, by omega⟩
      (by show 16 + (k.val - 16) = k.val; omega)).trans ?_
    exact onehot_apply 24 v0 _ _ _ _ p ⟨k.val - 16, by omega⟩
  rw [if_neg h40]
  by_cases h47 : k.val < 47
  · rw [if_pos h47]
    refine (concatenate_cols_apply _ _ p k 2 (by simp) 7 _ rfl 40 rfl ⟨k.val - 40, by omega⟩
      (by show 40 + (k.val - 40) = k.val; omega)).trans ?_
    exact onehot_apply 7 v1 _ _ _ _ p ⟨k.val - 40, by omega⟩
  · rw [if_neg h47, if_pos k.isLt]
    refine (concatenate_cols_apply _ _ p k 3 (by simp) 100 _ rfl 47 rfl ⟨k.val - 47, by have := k.isLt; omega⟩
      (by show 47 + (k.val - 47) = k.val; omega)).trans ?_
    exact onehot_apply 100 v2 _ _ _ _ p ⟨k.val - 47, by have := k.isLt; omega⟩

/-! ## The three pair one-hots -/

theorem pair01_apply (v0 v1 : Vec Ideal S1024x1 .i32) (p : Fin 1024) (k : Fin 168) :
    k0_pay3 (F := Ideal) v0 v1 (ix2 p k)
      = hot (IntOp.addi (IntOp.muli (v0 (ix2 p (0 : Fin 1))) 7#32) (v1 (ix2 p (0 : Fin 1)))) k.val := by
  unfold k0_pay3
  exact onehot_apply 168 _ _ _ _ _ p k

theorem pair02_apply (v0 v2 : Vec Ideal S1024x1 .i32) (p : Fin 1024) (k : Fin 2400) :
    k0_pay4 (F := Ideal) v0 v2 (ix2 p k)
      = hot (IntOp.addi (IntOp.muli (v0 (ix2 p (0 : Fin 1))) 100#32) (v2 (ix2 p (0 : Fin 1)))) k.val := by
  unfold k0_pay4
  exact onehot_apply 2400 _ _ _ _ _ p k

/-- The third pair's payload stops at the bit; the body widens and converts it later. -/
theorem pair12_bit_apply (v1 v2 : Vec Ideal S1024x1 .i32) (p : Fin 1024) (k : Fin 700) :
    k0_pay5 (F := Ideal) v1 v2 (ix2 p k)
      = IntOp.cmpi .eq (BitVec.ofNat 32 k.val) (IntOp.addi (IntOp.muli (v1 (ix2 p (0 : Fin 1))) 100#32) (v2 (ix2 p (0 : Fin 1)))) := by
  unfold k0_pay5
  exact bit_apply 700 _ _ _ p k

end Cert.KernelIdeal.TileValue

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.KerPayload.lean ====
/-
  What the kernel body stores for one tile, read at row p and unit q.

  The second group of columns lays the three pair one-hots side by side: entries 147 … 3414 of the row's feature
  vector. Each of the two matrix products, into a zero accumulator and with the weights contracted on their columns,
  is the plain sum over its columns of feature times weight. Their sum plus the bias row, clamped below at zero, is
  the tile function of the specification.
-/
import proofs.«126376_j75728863363405_2_alg».proof.Proof.KerPieces
import proofs.«126376_j75728863363405_2_alg».proof.Proof.LibMatmul2
import Idealize.ShloMosaic.Lib.ValueLayout

noncomputable section

namespace Cert.KernelIdeal.TileValue

open Cert.KernelIdeal Cert.KernelIdeal.Gen Idealize.ShloMosaic Idealize.ShloMosaic.TcCoe
open Idealize.ShloMosaic.ValueIdx WideSpec LibConcatCols

/-! ## The second group of columns: entries 147 … 3414 of the row's feature vector -/

theorem group2_apply (v38 : FVec Ideal S1024x168 .bf16) (v44 : FVec Ideal S1024x2400 .bf16) (v47 : IVec S1024x700 1)
    (d : Fin 16 → EReal) (s0 s1 s2 : BitVec 32) (p : Fin 1024)
    (h38 : ∀ k : Fin 168, v38 (ix2 p k) = hot (IntOp.addi (IntOp.muli s0 7#32) s1) k.val)
    (h44 : ∀ k : Fin 2400, v44 (ix2 p k) = hot (IntOp.addi (IntOp.muli s0 100#32) s2) k.val)
    (h47 : ∀ k : Fin 700, v47 (ix2 p k) = IntOp.cmpi .eq (BitVec.ofNat 32 k.val) (IntOp.addi (IntOp.muli s1 100#32) s2))
    (k : Fin 3268) :
    concatenate S1024x3268 1 [⟨S1024x168, v38⟩, ⟨S1024x2400, v44⟩,
        ⟨S1024x700, truncf (F := Ideal) .bf16 (sitofp .f32 (extui 32 v47 natLt_1_32)) bitsLt_bf16_f32⟩]
        concatenates_S1024x168_S1024x2400_S1024x700_S1024x3268_d1 (ix2 p k)
      = feat d s0 s1 s2 (147 + k.val) := by
  have hk := k.isLt
  unfold feat
  rw [dif_neg (show ¬ 147 + k.val < 16 by omega), if_neg (show ¬ 147 + k.val < 40 by omega),
    if_neg (show ¬ 147 + k.val < 47 by omega), if_neg (show ¬ 147 + k.val < 147 by omega)]
  by_cases h1 : k.val < 168
  · rw [if_pos (show 147 + k.val < 315 by omega)]
    refine (concatenate_cols_apply _ _ p k 0 (by simp) 168 v38 rfl 0 rfl ⟨k.val, h1⟩ (Nat.zero_add _)).trans ?_
    rw [h38]
    exact congrArg (hot _) (show k.val = 147 + k.val - 147 by omega)
  rw [if_neg (show ¬ 147 + k.val < 315 by omega)]
  by_cases h2 : k.val < 2568
  · rw [if_pos (show 147 + k.val < 2715 by omega)]
    refine (concatenate_cols_apply _ _ p k 1 (by simp) 2400 v44 rfl 168 rfl ⟨k.val - 168, by omega⟩
      (by show 168 + (k.val - 168) = k.val; omega)).trans ?_
    rw [h44]
    exact congrArg (hot _) (show k.val - 168 = 147 + k.val - 315 by omega)
  · rw [if_neg (show ¬ 147 + k.val < 2715 by omega)]
    refine (concatenate_cols_apply _ _ p k 2 (by simp) 700 _ rfl 2568 rfl ⟨k.val - 2568, by omega⟩
      (by show 2568 + (k.val - 2568) = k.val; omega)).trans ?_
    show ((((v47 (ix2 p (⟨k.val - 2568, by omega⟩ : Fin 700))).setWidth 32).toInt : ℝ) : EReal) = _
    rw [h47, signed_of_widened_bit]
    unfold hot
    rw [show 147 + k.val - 2715 = k.val - 2568 by omega]

/-! ## The two matrix products as plain sums -/

theorem product1_apply (A : FVec Ideal S1024x147 .bf16) (B : FVec Ideal S128x147 .bf16) (p : Fin 1024) (q : Fin 128) :
    matmul (F := Ideal) dot_S1024x147_S128x147_S1024x128_1_1_0_0_n_n none A B (constant (F := Ideal) S1024x128 .f32 0x00000000#32) (ix2 p q)
      = ∑ k : Fin 147, A (ix2 p k) * B (ix2 q k) :=
  LibMatmul2.matmul_nt_apply dot_S1024x147_S128x147_S1024x128_1_1_0_0_n_n_wf none A B p q

theorem product2_apply (A : FVec Ideal S1024x3268 .bf16) (B : FVec Ideal S128x3268 .bf16) (p : Fin 1024) (q : Fin 128) :
    matmul (F := Ideal) dot_S1024x3268_S128x3268_S1024x128_1_1_0_0_n_n none A B (constant (F := Ideal) S1024x128 .f32 0x00000000#32) (ix2 p q)
      = ∑ k : Fin 3268, A (ix2 p k) * B (ix2 q k) :=
  LibMatmul2.matmul_nt_apply dot_S1024x3268_S128x3268_S1024x128_1_1_0_0_n_n_wf none A B p q

/-! ## The stored value at (p, q) -/

theorem hz : (![0, 0] : Fin 2 → Nat) = fun _ => 0 := funext fun a => by fin_cases a <;> rfl

theorem stored_apply (x0 : Vec Ideal S1024x16 .f32) (x1 : Vec Ideal S1024x3 .i32) (x2 : Vec Ideal S128x147 .bf16)
    (x3 : Vec Ideal S128x3268 .bf16) (x4 : Vec Ideal S1x128 .f32) (p : Fin 1024) (q : Fin 128) :
    out0_5 (F := Ideal) x0 x1 x2 x3 x4 (ix2 p q) = tileAt x0 x1 x2 x3 x4 p q := by
  unfold out0_5
  rw [View.canon_unit_zero hz]
  simp only [View.ld_unit_zero (S := S1024x16) hz, View.ld_unit_zero (S := S128x147) hz,
    View.ld_unit_zero (S := S128x3268) hz, View.ld_unit_zero (S := S1x128) hz]
  unfold k0_pay1
  simp only [maximumf_apply, addf_apply, broadcast_apply]
  rw [product1_apply, product2_apply, broadcastTo_1b_ab_apply]
  simp only [shapeCast_self]
  unfold tileAt
  have g1 : ∀ k : Fin 147,
      k0_pay2 (F := Ideal) (View.ld x1 r0_0) (View.ld x1 r0_1) (View.ld x1 r0_2) x0 (ix2 p k)
        = feat (fun c => x0 (ix2 p c)) (x1 (ix2 p (0 : Fin 3))) (x1 (ix2 p (1 : Fin 3))) (x1 (ix2 p (2 : Fin 3))) k.val := by
    intro k
    rw [group1_apply, ld_col0, ld_col1, ld_col2]
  have g2 := group2_apply (k0_pay3 (F := Ideal) (View.ld x1 r0_0) (View.ld x1 r0_1))
    (k0_pay4 (F := Ideal) (View.ld x1 r0_0) (View.ld x1 r0_2)) (k0_pay5 (F := Ideal) (View.ld x1 r0_1) (View.ld x1 r0_2))
    (fun c => x0 (ix2 p c)) (x1 (ix2 p (0 : Fin 3))) (x1 (ix2 p (1 : Fin 3))) (x1 (ix2 p (2 : Fin 3))) p
    (fun k => by rw [pair01_apply, ld_col0, ld_col1])
    (fun k => by rw [pair02_apply, ld_col0, ld_col2])
    (fun k => by rw [pair12_bit_apply, ld_col1, ld_col2])
  rw [Finset.sum_congr rfl (fun k _ => congrArg (· * x2 (ix2 q k)) (g1 k)),
    Finset.sum_congr rfl (fun k _ => congrArg (· * x3 (ix2 q k)) (g2 k))]
  rfl

end Cert.KernelIdeal.TileValue

end
-- ==== Proof.KerArray.lean ====
/-
  From tiles to the whole output array.

  Before the kernel runs, the host cuts the weights into their first 147 and last 3268 columns (and narrows them, the
  identity on extended reals) and views the bias as a one-row matrix. Grid point t stages rows 1024·t … 1024·t + 1023
  of the features and of the indices, the two weight matrices whole and the bias row whole, and writes back rows
  1024·t … 1024·t + 1023 of the output. What it writes is the tile function of those blocks, which is the layer's
  output at those rows; the 32 points' blocks cover the 32768 rows, so the output array after the run is the layer's
  output array.
-/
import proofs.«126376_j75728863363405_2_alg».proof.Proof.KerPayload
import proofs.«126376_j75728863363405_2_alg».proof.Proof.Gen.KernelIdeal.Value
import Idealize.ShloMosaic.Lib.StableHlo.Run

set_option maxRecDepth 16384

noncomputable section

namespace Cert.KernelIdeal.ArrayValue

open Cert.KernelIdeal Cert.KernelIdeal.Gen Cert.KernelIdeal.TileValue Idealize.ShloMosaic Idealize.ShloMosaic.TcCoe Idealize.SL.Sem
open Idealize.ShloMosaic.Pipeline (Dat)
open Idealize.ShloMosaic.ValueIdx WideSpec

variable (m : (ℓ : Loc nD τ sig) → Buf (Elt Ideal) ℓ) (ρ : Dev nD → PrngReg)

/-! ## What the host operations before the region leave in the weight and bias arrays -/

theorem entry_w1 (c : Dev nD) :
    (V m c main_v2 : S128x147.Idx → EReal)
      = truncf (F := Ideal) .bf16 (extractStridedSlice S128x147 ![0, 0] (m ((c : Thread nD τ).loc main_arg2)) slices_S128x3415_S128x147_0_0) bitsLt_bf16_f32 := by
  dsimp only [V, hostOps0]; after_results

theorem entry_w2 (c : Dev nD) :
    (V m c main_v4 : S128x3268.Idx → EReal)
      = truncf (F := Ideal) .bf16 (extractStridedSlice S128x3268 ![0, 147] (m ((c : Thread nD τ).loc main_arg2)) slices_S128x3415_S128x3268_0_147) bitsLt_bf16_f32 := by
  dsimp only [V, hostOps0]; after_results

theorem entry_b2 (c : Dev nD) :
    (V m c main_v0 : S1x128.Idx → EReal) = shapeCast S1x128 (m ((c : Thread nD τ).loc main_arg3)) shapeCasts_S128_S1x128 := by
  dsimp only [V, hostOps0]; after_results; rfl

/-- The first weight matrix at (q, k) is the weights at (q, k). -/
theorem w1_apply (c : Dev nD) (q : Fin 128) (k : Fin 147) :
    V m c main_v2 (ix2 q k) = m ((c : Thread nD τ).loc main_arg2) (ix2 q (⟨k.val, by omega⟩ : Fin 3415)) := by
  rw [entry_w1]
  exact extractStridedSlice_apply ![0, 0] _ slices_S128x3415_S128x147_0_0 (ix2 q k) (ix2 q (⟨k.val, by omega⟩ : Fin 3415))
    (fun a => match a with
      | ⟨0, _⟩ => by show q.val = 0 + q.val; omega
      | ⟨1, _⟩ => by show k.val = 0 + k.val; omega)

/-- The second weight matrix at (q, k) is the weights at (q, 147 + k). -/
theorem w2_apply (c : Dev nD) (q : Fin 128) (k : Fin 3268) :
    V m c main_v4 (ix2 q k) = m ((c : Thread nD τ).loc main_arg2) (ix2 q (⟨147 + k.val, by omega⟩ : Fin 3415)) := by
  rw [entry_w2]
  exact extractStridedSlice_apply ![0, 147] _ slices_S128x3415_S128x3268_0_147 (ix2 q k) (ix2 q (⟨147 + k.val, by omega⟩ : Fin 3415))
    (fun a => match a with
      | ⟨0, _⟩ => by show q.val = 0 + q.val; omega
      | ⟨1, _⟩ => by show 147 + k.val = 147 + k.val; rfl)

/-- The bias row at (0, q) is the bias at q. -/
theorem b2_apply (c : Dev nD) (q : Fin 128) :
    V m c main_v0 (ix2 (0 : Fin 1) q) = m ((c : Thread nD τ).loc main_arg3) (ix1 q) := by
  rw [entry_b2]
  exact shapeCast_apply _ shapeCasts_S128_S1x128 (ix2 (0 : Fin 1) q) (ix1 q)
    (by rewrite [Shape.rowMajor_val_one, Shape.rowMajor_val_two]; show q.val = 0 * 128 + q.val; omega)

/-! ## The printed index maps over the grid -/

/-- Decided over the 32 points: the feature, index and output windows move together down the rows, one block of 1024
    per point; the weight and bias windows stay at their one block. -/
theorem idx_facts : ∀ t : Fin cfg0.N, win0_5.index t (0 : Fin 2) ≤ 31 ∧ win0_5.index t (1 : Fin 2) = 0
    ∧ win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of 1024 rows is some point's. -/
theorem idx_onto : ∀ q0 : Fin 32, ∃ t : Fin cfg0.N, win0_5.index t = ![q0.val, 0] :=
  (by decide +kernel : ∀ q0 : Fin 32, ∃ t : Fin grid0.N, win0_5.index t = ![q0.val, 0])

/-! ## Each window's block at point t, read at an entry -/

theorem blk0_apply (c : Dev nD) (t : Fin cfg0.N) (p : Fin 1024) (d : Fin 16) (r : Fin 32768)
    (hr : r.val = win0_5.index t (0 : Fin 2) * 1024 + p.val) :
    iblk m c 0 t (ix2 p d) = V m c main_arg0 (ix2 r d) := by
  obtain ⟨e0, e1, e2, e3, e4, e5, e6, e7, e8, e9, e10, e11⟩ := idx_facts t
  show V m c main_arg0 (((cfg0.win 0).blk t).view.emb (ix2 p d)) = V m c main_arg0 (ix2 r d)
  congr 1
  funext a; apply Fin.ext
  match a with
  | ⟨0, _⟩ => show win0_0.index t (0 : Fin 2) * 1024 + 1 * p.val = r.val; omega
  | ⟨1, _⟩ => show win0_0.index t (1 : Fin 2) * 16 + 1 * d.val = d.val; omega

theorem blk1_apply (c : Dev nD) (t : Fin cfg0.N) (p : Fin 1024) (d : Fin 3) (r : Fin 32768)
    (hr : r.val = win0_5.index t (0 : Fin 2) * 1024 + p.val) :
    iblk m c 1 t (ix2 p d) = V m c main_arg1 (ix2 r d) := by
  obtain ⟨e0, e1, e2, e3, e4, e5, e6, e7, e8, e9, e10, e11⟩ := idx_facts t
  show V m c main_arg1 (((cfg0.win 1).blk t).view.emb (ix2 p d)) = V m c main_arg1 (ix2 r d)
  congr 1
  funext a; apply Fin.ext
  match a with
  | ⟨0, _⟩ => show win0_1.index t (0 : Fin 2) * 1024 + 1 * p.val = r.val; omega
  | ⟨1, _⟩ => show win0_1.index t (1 : Fin 2) * 3 + 1 * d.val = d.val; omega

theorem blk2_apply (c : Dev nD) (t : Fin cfg0.N) (q : Fin 128) (k : Fin 147) :
    iblk m c 2 t (ix2 q k) = V m c main_v2 (ix2 q k) := by
  obtain ⟨e0, e1, e2, e3, e4, e5, e6, e7, e8, e9, e10, e11⟩ := idx_facts t
  show V m c main_v2 (((cfg0.win 2).blk t).view.emb (ix2 q k)) = V m c main_v2 (ix2 q k)
  congr 1
  funext a; apply Fin.ext
  match a with
  | ⟨0, _⟩ => show win0_2.index t (0 : Fin 2) * 128 + 1 * q.val = q.val; omega
  | ⟨1, _⟩ => show win0_2.index t (1 : Fin 2) * 147 + 1 * k.val = k.val; omega

theorem blk3_apply (c : Dev nD) (t : Fin cfg0.N) (q : Fin 128) (k : Fin 3268) :
    iblk m c 3 t (ix2 q k) = V m c main_v4 (ix2 q k) := by
  obtain ⟨e0, e1, e2, e3, e4, e5, e6, e7, e8, e9, e10, e11⟩ := idx_facts t
  show V m c main_v4 (((cfg0.win 3).blk t).view.emb (ix2 q k)) = V m c main_v4 (ix2 q k)
  congr 1
  funext a; apply Fin.ext
  match a with
  | ⟨0, _⟩ => show win0_3.index t (0 : Fin 2) * 128 + 1 * q.val = q.val; omega
  | ⟨1, _⟩ => show win0_3.index t (1 : Fin 2) * 3268 + 1 * k.val = k.val; omega

theorem blk4_apply (c : Dev nD) (t : Fin cfg0.N) (q : Fin 128) :
    iblk m c 4 t (ix2 (0 : Fin 1) q) = V m c main_v0 (ix2 (0 : Fin 1) q) := by
  obtain ⟨e0, e1, e2, e3, e4, e5, e6, e7, e8, e9, e10, e11⟩ := idx_facts t
  show V m c main_v0 (((cfg0.win 4).blk t).view.emb (ix2 (0 : Fin 1) q)) = V m c main_v0 (ix2 (0 : Fin 1) q)
  congr 1
  funext a; apply Fin.ext
  match a with
  | ⟨0, _⟩ => show win0_4.index t (0 : Fin 2) * 1 + 1 * 0 = 0; omega
  | ⟨1, _⟩ => show win0_4.index t (1 : Fin 2) * 128 + 1 * q.val = q.val; omega

/-! ## What point t writes back is its block of the layer's output array -/

theorem flushed_eq (c : Dev nD) (t : Fin cfg0.N) :
    (dats m 0 c).flushed 5 t = ((cfg0.win 5).blk t).view.read (Elt Ideal)
      (G (V m c main_arg0) (V m c main_arg1) (m ((c : Thread nD τ).loc main_arg2)) (m ((c : Thread nD τ).loc main_arg3))) := by
  rw [Cert.KernelIdeal.Value.flushed5]
  obtain ⟨e0, e1, e2, e3, e4, e5, e6, e7, e8, e9, e10, e11⟩ := idx_facts t
  funext j
  obtain ⟨p, q, rfl⟩ : ∃ (p : Fin 1024) (q : Fin 128), j = ix2 p q := ⟨j 0, j 1, eq_ix2 j⟩
  have hrow : win0_5.index t (0 : Fin 2) * 1024 + p.val < 32768 := by have := p.isLt; omega
  have hemb : ((cfg0.win 5).blk t).view.emb (ix2 p q)
      = ix2 (⟨win0_5.index t (0 : Fin 2) * 1024 + p.val, hrow⟩ : Fin 32768) q := by
    funext a; apply Fin.ext
    match a with
    | ⟨0, _⟩ => show win0_5.index t (0 : Fin 2) * 1024 + 1 * p.val = win0_5.index t (0 : Fin 2) * 1024 + p.val; omega
    | ⟨1, _⟩ => show win0_5.index t (1 : Fin 2) * 128 + 1 * q.val = q.val; omega
  show out0_5 (F := Ideal) (iblk m c 0 t) (iblk m c 1 t) (iblk m c 2 t) (iblk m c 3 t) (iblk m c 4 t) (ix2 p q)
    = G (V m c main_arg0) (V m c main_arg1) (m ((c : Thread nD τ).loc main_arg2)) (m ((c : Thread nD τ).loc main_arg3))
        (((cfg0.win 5).blk t).view.emb (ix2 p q))
  rw [hemb, G_ix2]
  refine (stored_apply _ _ _ _ _ p q).trans ?_
  exact tileAt_eq_outAt _ _ _ _ _ _ _ _ _ p q _
    (fun d => blk0_apply m c t p d _ rfl)
    (fun d => blk1_apply m c t p d _ rfl)
    (fun k => (blk2_apply m c t q k).trans (w1_apply m c q k))
    (fun k => (blk3_apply m c t q k).trans (w2_apply m c q k))
    ((blk4_apply m c t q).trans (b2_apply m c q))

/-! ## The 32 blocks cover the output array -/

/-- An index of the array is in point t's block iff each coordinate is in the block's range on its axis. -/
theorem mem_blk (t : Fin cfg0.N) (i : S32768x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v5).slice (win0_5.rect t)).set ↔ _
  rw [View.set_slice_whole, Rect.mem_set_unit]
  exact Iff.rfl

theorem cover (i : S32768x128.Idx) : ∃ t : Fin cfg0.N, (cfg0.win 5).flush t = true ∧ i ∈ ((cfg0.win 5).blk t).view.set := by
  have hi0 : (i 0).val < 32768 := (i 0).isLt
  have hi1 : (i 1).val < 128 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 128 ≤ (i 1).val ∧ (i 1).val < win0_5.index t (1 : Fin 2) * 128 + 128
    omega

/-! ## The output array after the run -/

theorem final (c : Dev nD) :
    (dats m 0 c).arrAt 5 cfg0.N
      = G (m ((c : Thread nD τ).loc main_arg0)) (m ((c : Thread nD τ).loc main_arg1))
          (m ((c : Thread nD τ).loc main_arg2)) (m ((c : Thread nD τ).loc main_arg3)) := by
  rw [← V_main_arg0 m c, ← V_main_arg1 m c]
  exact (dats m 0 c).arrAt_eq_of_cover 5 _ (fun t _ => flushed_eq m c t) (cover)

/-- The kernel's run: it ends with the output array at the layer's output of the argument arrays, and the arguments
    unchanged. -/
theorem run : θ_run defs (onTc (τ := τ) (main (F := Ideal))) ⟨m, fun _ => 0, ρ⟩ fun r => ∀ c : Dev nD,
      r.2.mem ((c : Thread nD τ).loc main_v5)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.RefSide.lean ====
/-
  The reference program computes the layer's output array.

  Its feature matrix is the column-wise concatenation of the dense features and six one-hot matrices; each one-hot
  compares a row's index word (one of the three columns of the index array, or a pair index computed from two of them in
  wrapping arithmetic) with the class numbers and converts the bit to a float. Read at row r, column k, the
  concatenation is entry k of row r's feature vector; the matrix product with the transposed weights is then the sum
  over the 3415 columns, the bias is added along the rows, and the maximum with zero is taken.
-/
import proofs.«126376_j75728863363405_2_alg».proof.Proof.Gen.ReferenceIdeal.Read
import proofs.«126376_j75728863363405_2_alg».proof.Proof.Spec
import proofs.«126376_j75728863363405_2_alg».proof.Proof.LibConcatCols

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx WideSpec LibConcatCols

/-! ## A column of the index array as a vector: entry r is the array at (r, column) -/

theorem col_v1 (x1 : (⟨S32768x3, .i32⟩ : BufTy).Contents (Elt Ideal)) (r : Fin 32768) :
    val_main_v1 (F := Ideal) x1 (ix1 r) = x1 (ix2 r (0 : Fin 3)) := by
  rw [val_main_v1_apply, val_main_v0_apply]
  congr 1
  funext a; apply Fin.ext
  match a with
  | ⟨0, _⟩ => exact Nat.div_one _
  | ⟨1, _⟩ => rfl

theorem col_v4 (x1 : (⟨S32768x3, .i32⟩ : BufTy).Contents (Elt Ideal)) (r : Fin 32768) :
    val_main_v4 (F := Ideal) x1 (ix1 r) = x1 (ix2 r (1 : Fin 3)) := by
  rw [val_main_v4_apply, val_main_v3_apply]
  congr 1
  funext a; apply Fin.ext
  match a with
  | ⟨0, _⟩ => exact Nat.div_one _
  | ⟨1, _⟩ => rfl

theorem col_v7 (x1 : (⟨S32768x3, .i32⟩ : BufTy).Contents (Elt Ideal)) (r : Fin 32768) :
    val_main_v7 (F := Ideal) x1 (ix1 r) = x1 (ix2 r (2 : Fin 3)) := by
  rw [val_main_v7_apply, val_main_v6_apply]
  congr 1
  funext a; apply Fin.ext
  match a with
  | ⟨0, _⟩ => exact Nat.div_one _
  | ⟨1, _⟩ => rfl

theorem col_v10 (x1 : (⟨S32768x3, .i32⟩ : BufTy).Contents (Elt Ideal)) (r : Fin 32768) :
    val_main_v10 (F := Ideal) x1 (ix1 r) = x1 (ix2 r (0 : Fin 3)) := by
  rw [val_main_v10_apply, val_main_v9_apply]
  congr 1
  funext a; apply Fin.ext
  match a with
  | ⟨0, _⟩ => exact Nat.div_one _
  | ⟨1, _⟩ => rfl

theorem col_v14 (x1 : (⟨S32768x3, .i32⟩ : BufTy).Contents (Elt Ideal)) (r : Fin 32768) :
    val_main_v14 (F := Ideal) x1 (ix1 r) = x1 (ix2 r (1 : Fin 3)) := by
  rw [val_main_v14_apply, val_main_v13_apply]
  congr 1
  funext a; apply Fin.ext
  match a with
  | ⟨0, _⟩ => exact Nat.div_one _
  | ⟨1, _⟩ => rfl

theorem col_v18 (x1 : (⟨S32768x3, .i32⟩ : BufTy).Contents (Elt Ideal)) (r : Fin 32768) :
    val_main_v18 (F := Ideal) x1 (ix1 r) = x1 (ix2 r (0 : Fin 3)) := by
  rw [val_main_v18_apply, val_main_v17_apply]
  congr 1
  funext a; apply Fin.ext
  match a with
  | ⟨0, _⟩ => exact Nat.div_one _
  | ⟨1, _⟩ => rfl

theorem col_v22 (x1 : (⟨S32768x3, .i32⟩ : BufTy).Contents (Elt Ideal)) (r : Fin 32768) :
    val_main_v22 (F := Ideal) x1 (ix1 r) = x1 (ix2 r (2 : Fin 3)) := by
  rw [val_main_v22_apply, val_main_v21_apply]
  congr 1
  funext a; apply Fin.ext
  match a with
  | ⟨0, _⟩ => exact Nat.div_one _
  | ⟨1, _⟩ => rfl

theorem col_v26 (x1 : (⟨S32768x3, .i32⟩ : BufTy).Contents (Elt Ideal)) (r : Fin 32768) :
    val_main_v26 (F := Ideal) x1 (ix1 r) = x1 (ix2 r (1 : Fin 3)) := by
  rw [val_main_v26_apply, val_main_v25_apply]
  congr 1
  funext a; apply Fin.ext
  match a with
  | ⟨0, _⟩ => exact Nat.div_one _
  | ⟨1, _⟩ => rfl

theorem col_v30 (x1 : (⟨S32768x3, .i32⟩ : BufTy).Contents (Elt Ideal)) (r : Fin 32768) :
    val_main_v30 (F := Ideal) x1 (ix1 r) = x1 (ix2 r (2 : Fin 3)) := by
  rw [val_main_v30_apply, val_main_v29_apply]
  congr 1
  funext a; apply Fin.ext
  match a with
  | ⟨0, _⟩ => exact Nat.div_one _
  | ⟨1, _⟩ => rfl

/-! ## The pair indices: one column times the other's class count, plus the other column -/

theorem pair_v15 (x1 : (⟨S32768x3, .i32⟩ : BufTy).Contents (Elt Ideal)) (r : Fin 32768) :
    val_main_v15 (F := Ideal) x1 (ix1 r)
      = IntOp.addi (IntOp.muli (x1 (ix2 r (0 : Fin 3))) 7#32) (x1 (ix2 r (1 : Fin 3))) := by
  rw [val_main_v15_apply, val_main_v12_apply, col_v10, val_main_v11_apply, val_main_c_apply, col_v14]

theorem pair_v23 (x1 : (⟨S32768x3, .i32⟩ : BufTy).Contents (Elt Ideal)) (r : Fin 32768) :
    val_main_v23 (F := Ideal) x1 (ix1 r)
      = IntOp.addi (IntOp.muli (x1 (ix2 r (0 : Fin 3))) 100#32) (x1 (ix2 r (2 : Fin 3))) := by
  rw [val_main_v23_apply, val_main_v20_apply, col_v18, val_main_v19_apply, val_main_c_0_apply, col_v22]

theorem pair_v31 (x1 : (⟨S32768x3, .i32⟩ : BufTy).Contents (Elt Ideal)) (r : Fin 32768) :
    val_main_v31 (F := Ideal) x1 (ix1 r)
      = IntOp.addi (IntOp.muli (x1 (ix2 r (1 : Fin 3))) 100#32) (x1 (ix2 r (2 : Fin 3))) := by
  rw [val_main_v31_apply, val_main_v28_apply, col_v26, val_main_v27_apply, val_main_c_1_apply, col_v30]

/-! ## Each one-hot matrix at (r, k): is class k the row's index word? -/

theorem hot_v2 (x1 : (⟨S32768x3, .i32⟩ : BufTy).Contents (Elt Ideal)) (r : Fin 32768) (k : Fin 24) :
    val_main_v2 (F := Ideal) x1 (ix2 r k) = hot (val_main_v1 (F := Ideal) x1 (ix1 r)) k.val := by
  rw [val_main_v2_apply, val_main_call0_v4_apply, val_main_call0_v2_apply, val_main_call0_v0_apply,
    val_main_call0_v3_apply, val_main_call0_v1_apply]
  have e : idx_main_call0_v0 (idx_main_call0_v2 (ix2 r k)) = ix1 r := by
    funext a; match a with | ⟨0, _⟩ => rfl
  rw [e]
  show ((((IntOp.cmpi .eq (val_main_v1 (F := Ideal) x1 (ix1 r)) (BitVec.ofNat 32 k.val)).toNat : ℕ) : ℝ) : EReal) = _
  rw [unsigned_of_bit]
  unfold hot
  exact if_congr eq_comm rfl rfl

theorem hot_v5 (x1 : (⟨S32768x3, .i32⟩ : BufTy).Contents (Elt Ideal)) (r : Fin 32768) (k : Fin 7) :
    val_main_v5 (F := Ideal) x1 (ix2 r k) = hot (val_main_v4 (F := Ideal) x1 (ix1 r)) k.val := by
  rw [val_main_v5_apply, val_main_call1_v4_apply, val_main_call1_v2_apply, val_main_call1_v0_apply,
    val_main_call1_v3_apply, val_main_call1_v1_apply]
  have e : idx_main_call1_v0 (idx_main_call1_v2 (ix2 r k)) = ix1 r := by
    funext a; match a with | ⟨0, _⟩ => rfl
  rw [e]
  show ((((IntOp.cmpi .eq (val_main_v4 (F := Ideal) x1 (ix1 r)) (BitVec.ofNat 32 k.val)).toNat : ℕ) : ℝ) : EReal) = _
  rw [unsigned_of_bit]
  unfold hot
  exact if_congr eq_comm rfl rfl

theorem hot_v8 (x1 : (⟨S32768x3, .i32⟩ : BufTy).Contents (Elt Ideal)) (r : Fin 32768) (k : Fin 100) :
    val_main_v8 (F := Ideal) x1 (ix2 r k) = hot (val_main_v7 (F := Ideal) x1 (ix1 r)) k.val := by
  rw [val_main_v8_apply, val_main_call2_v4_apply, val_main_call2_v2_apply, val_main_call2_v0_apply,
    val_main_call2_v3_apply, val_main_call2_v1_apply]
  have e : idx_main_call2_v0 (idx_main_call2_v2 (ix2 r k)) = ix1 r := by
    funext a; match a with | ⟨0, _⟩ => rfl
  rw [e]
  show ((((IntOp.cmpi .eq (val_main_v7 (F := Ideal) x1 (ix1 r)) (BitVec.ofNat 32 k.val)).toNat : ℕ) : ℝ) : EReal) = _
  rw [unsigned_of_bit]
  unfold hot
  exact if_congr eq_comm rfl rfl

theorem hot_v16 (x1 : (⟨S32768x3, .i32⟩ : BufTy).Contents (Elt Ideal)) (r : Fin 32768) (k : Fin 168) :
    val_main_v16 (F := Ideal) x1 (ix2 r k) = hot (val_main_v15 (F := Ideal) x1 (ix1 r)) k.val := by
  rw [val_main_v16_apply, val_main_call3_v4_apply, val_main_call3_v2_apply, val_main_call3_v0_apply,
    val_main_call3_v3_apply, val_main_call3_v1_apply]
  have e : idx_main_call3_v0 (idx_main_call3_v2 (ix2 r k)) = ix1 r := by
    funext a; match a with | ⟨0, _⟩ => rfl
  rw [e]
  show ((((IntOp.cmpi .eq (val_main_v15 (F := Ideal) x1 (ix1 r)) (BitVec.ofNat 32 k.val)).toNat : ℕ) : ℝ) : EReal) = _
  rw [unsigned_of_bit]
  unfold hot
  exact if_congr eq_comm rfl rfl

theorem hot_v24 (x1 : (⟨S32768x3, .i32⟩ : BufTy).Contents (Elt Ideal)) (r : Fin 32768) (k : Fin 2400) :
    val_main_v24 (F := Ideal) x1 (ix2 r k) = hot (val_main_v23 (F := Ideal) x1 (ix1 r)) k.val := by
  rw [val_main_v24_apply, val_main_call4_v4_apply, val_main_call4_v2_apply, val_main_call4_v0_apply,
    val_main_call4_v3_apply, val_main_call4_v1_apply]
  have e : idx_main_call4_v0 (idx_main_call4_v2 (ix2 r k)) = ix1 r := by
    funext a; match a with | ⟨0, _⟩ => rfl
  rw [e]
  show ((((IntOp.cmpi .eq (val_main_v23 (F := Ideal) x1 (ix1 r)) (BitVec.ofNat 32 k.val)).toNat : ℕ) : ℝ) : EReal) = _
  rw [unsigned_of_bit]
  unfold hot
  exact if_congr eq_comm rfl rfl

theorem hot_v32 (x1 : (⟨S32768x3, .i32⟩ : BufTy).Contents (Elt Ideal)) (r : Fin 32768) (k : Fin 700) :
    val_main_v32 (F := Ideal) x1 (ix2 r k) = hot (val_main_v31 (F := Ideal) x1 (ix1 r)) k.val := by
  rw [val_main_v32_apply, val_main_call5_v4_apply, val_main_call5_v2_apply, val_main_call5_v0_apply,
    val_main_call5_v3_apply, val_main_call5_v1_apply]
  have e : idx_main_call5_v0 (idx_main_call5_v2 (ix2 r k)) = ix1 r := by
    funext a; match a with | ⟨0, _⟩ => rfl
  rw [e]
  show ((((IntOp.cmpi .eq (val_main_v31 (F := Ideal) x1 (ix1 r)) (BitVec.ofNat 32 k.val)).toNat : ℕ) : ℝ) : EReal) = _
  rw [unsigned_of_bit]
  unfold hot
  exact if_congr eq_comm rfl rfl

/-! ## The feature matrix at (r, k) is entry k of row r's feature vector -/

theorem features_apply (x0 : (⟨S32768x16, .f32⟩ : BufTy).Contents (Elt Ideal)) (x1 : (⟨S32768x3, .i32⟩ : BufTy).Contents (Elt Ideal))
    (r : Fin 32768) (k : Fin 3415) :
    val_main_v33 (F := Ideal) x0 x1 (ix2 r k)
      = feat (fun c => x0 (ix2 r c)) (x1 (ix2 r (0 : Fin 3))) (x1 (ix2 r (1 : Fin 3))) (x1 (ix2 r (2 : Fin 3))) k.val := by
  unfold val_main_v33 feat
  by_cases h16 : k.val < 16
  · rw [dif_pos h16]
    exact concatenate_cols_apply _ _ r k 0 (by simp) 16 x0 rfl 0 rfl ⟨k.val, h16⟩ (Nat.zero_add _)
  rw [dif_neg h16]
  by_cases h40 : k.val < 40
  · rw [if_pos h40, ← col_v1 x1 r, ← hot_v2 x1 r ⟨k.val - 16, by omega⟩]
    exact concatenate_cols_apply _ _ r k 1 (by simp) 24 (val_main_v2 (F := Ideal) x1) rfl 16 rfl ⟨k.val - 16, by omega⟩
      (by show 16 + (k.val - 16) = k.val; omega)
  rw [if_neg h40]
  by_cases h47 : k.val < 47
  · rw [if_pos h47, ← col_v4 x1 r, ← hot_v5 x1 r ⟨k.val - 40, by omega⟩]
    exact concatenate_cols_apply _ _ r k 2 (by simp) 7 (val_main_v5 (F := Ideal) x1) rfl 40 rfl ⟨k.val - 40, by omega⟩
      (by show 40 + (k.val - 40) = k.val; omega)
  rw [if_neg h47]
  by_cases h147 : k.val < 147
  · rw [if_pos h147, ← col_v7 x1 r, ← hot_v8 x1 r ⟨k.val - 47, by omega⟩]
    exact concatenate_cols_apply _ _ r k 3 (by simp) 100 (val_main_v8 (F := Ideal) x1) rfl 47 rfl ⟨k.val - 47, by omega⟩
      (by show 47 + (k.val - 47) = k.val; omega)
  rw [if_neg h147]
  by_cases h315 : k.val < 315
  · rw [if_pos h315, ← pair_v15 x1 r, ← hot_v16 x1 r ⟨k.val - 147, by omega⟩]
    exact concatenate_cols_apply _ _ r k 4 (by simp) 168 (val_main_v16 (F := Ideal) x1) rfl 147 rfl ⟨k.val - 147, by omega⟩
      (by show 147 + (k.val - 147) = k.val; omega)
  rw [if_neg h315]
  by_cases h2715 : k.val < 2715
  · rw [if_pos h2715, ← pair_v23 x1 r, ← hot_v24 x1 r ⟨k.val - 315, by omega⟩]
    exact concatenate_cols_apply _ _ r k 5 (by simp) 2400 (val_main_v24 (F := Ideal) x1) rfl 315 rfl ⟨k.val - 315, by omega⟩
      (by show 315 + (k.val - 315) = k.val; omega)
  · rw [if_neg h2715, ← pair_v31 x1 r, ← hot_v32 x1 r ⟨k.val - 2715, by have := k.isLt; omega⟩]
    exact concatenate_cols_apply _ _ r k 6 (by simp) 700 (val_main_v32 (F := Ideal) x1) rfl 2715 rfl
      ⟨k.val - 2715, by have := k.isLt; omega⟩ (by show 2715 + (k.val - 2715) = k.val; omega)

/-! ## The reference's result is the layer's output array -/

theorem result_eq (x0 : (⟨S32768x16, .f32⟩ : BufTy).Contents (Elt Ideal)) (x1 : (⟨S32768x3, .i32⟩ : BufTy).Contents (Elt Ideal))
    (x2 : (⟨S128x3415, .f32⟩ : BufTy).Contents (Elt Ideal)) (x3 : (⟨S128, .f32⟩ : BufTy).Contents (Elt Ideal)) :
    val_main_v39 (F := Ideal) x0 x1 x2 x3 = G x0 x1 x2 x3 := by
  funext i
  obtain ⟨r, o, rfl⟩ : ∃ (r : Fin 32768) (o : Fin 128), i = ix2 r o := ⟨i 0, i 1, eq_ix2 i⟩
  rw [G_ix2, val_main_v39_apply, val_main_v38_apply, val_main_v35_apply, val_main_v37_apply, val_main_v36_apply,
    val_main_call6_v0_apply, val_main_call6_cst_apply]
  unfold outAt
  have hb : idx_main_v36 (idx_main_v37 (ix2 r o)) = ix1 o := by
    funext a; match a with | ⟨0, _⟩ => rfl
  rw [hb]
  have hs : ∀ k : Fin 3415,
      val_main_v33 (F := Ideal) x0 x1 (lidx_main_v35 (ix2 r o) k) * val_main_v34 (F := Ideal) x2 (ridx_main_v35 (ix2 r o) k)
        = feat (fun c => x0 (ix2 r c)) (x1 (ix2 r (0 : Fin 3))) (x1 (ix2 r (1 : Fin 3))) (x1 (ix2 r (2 : Fin 3))) k.val * x2 (ix2 o k) := by
    intro k
    have el : lidx_main_v35 (ix2 r o) k = ix2 r k := by
      funext a; match a with | ⟨0, _⟩ => rfl | ⟨1, _⟩ => rfl
    have er : idx_main_v34 (ridx_main_v35 (ix2 r o) k) = ix2 o k := by
      funext a; match a with | ⟨0, _⟩ => rfl | ⟨1, _⟩ => rfl
    rw [el, features_apply, val_main_v34_apply, er]
  rw [Finset.sum_congr rfl (fun k _ => hs k)]
  rfl

end Cert.ReferenceIdeal.RefValue

end
-- ==== Proof.lean ====
/-
  The wide layer: relu(features · Wᵀ + b) over 32768 rows, where a row's 3415 features are its sixteen dense features
  followed by six one-hot encodings (three class indices and their three pairwise combinations).

  The reference builds the whole 32768 × 3415 feature matrix and takes one matrix product with the transposed weights.
  The kernel works on tiles of 1024 rows; in each it builds the first 147 feature columns and the last 3268 as two
  matrices, multiplies each with the matching columns of the weights, and adds the two products, the bias, and clamps
  at zero. Over the extended reals the two agree entry by entry: a one-hot entry is 1 or 0 according to the same word
  comparison on both sides (the pair indices are formed in the same wrapping 32-bit arithmetic), narrowing a float is
  the identity, a matrix product into a zero accumulator is the plain sum of products, and the sum over the 3415
  columns is the sum over the first 147 plus the sum over the rest, by commutativity and associativity of addition
  alone — so nothing depends on the inputs being finite.

  Proof/Spec.lean states the layer and the joining law; Proof/RefSide.lean shows the reference computes it;
  Proof/KerPieces.lean, Proof/KerPayload.lean and Proof/KerArray.lean show the kernel's tiles compute it and cover the
  output. The programs' runs, frames and read-at-an-index lemmas are the generated modules imported below; the
  kernel's idealization rewrote no operation, so that conjunct is `True`.
-/
import proofs.«126376_j75728863363405_2_alg».proof.Defs
import proofs.«126376_j75728863363405_2_alg».proof.Proof.Gen.Kernel
import proofs.«126376_j75728863363405_2_alg».proof.Proof.Gen.Kernel.Skeleton
import proofs.«126376_j75728863363405_2_alg».proof.Proof.Gen.Kernel.Launch
import proofs.«126376_j75728863363405_2_alg».proof.Proof.Gen.Kernel.Points
import proofs.«126376_j75728863363405_2_alg».proof.Proof.Gen.Kernel.Frame
import proofs.«126376_j75728863363405_2_alg».proof.Proof.Gen.KernelIdeal
import proofs.«126376_j75728863363405_2_alg».proof.Proof.Gen.KernelIdeal.Skeleton
import proofs.«126376_j75728863363405_2_alg».proof.Proof.Gen.KernelIdeal.Launch
import proofs.«126376_j75728863363405_2_alg».proof.Proof.Gen.KernelIdeal.Points
import proofs.«126376_j75728863363405_2_alg».proof.Proof.Gen.KernelIdeal.Frame
import proofs.«126376_j75728863363405_2_alg».proof.Proof.Gen.ReferenceIdeal
import proofs.«126376_j75728863363405_2_alg».proof.Proof.Gen.KernelIdeal.Value
import proofs.«126376_j75728863363405_2_alg».proof.Proof.Gen.ReferenceIdeal.Run
import proofs.«126376_j75728863363405_2_alg».proof.Proof.Gen.ReferenceIdeal.Read
import proofs.«126376_j75728863363405_2_alg».proof.Proof.Gen.Pre_finite_inputs
import proofs.«126376_j75728863363405_2_alg».proof.Proof.KerArray
import proofs.«126376_j75728863363405_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the layer's output array of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v39_eq _ _ _ _).trans ((Cert.ReferenceIdeal.RefValue.result_eq _ _ _ _).trans ?_)
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
